-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S4096x1 : Shape := ⟨2, ![4096, 1]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_

variable [Facts]

def fn {F : FTy → Type} [FloatOps F] (main_arg0 : FVec F S4096x256 .f32) (main_arg1 : FVec F S4096x1 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  main_v8
-- ==== Kernel.lean ====
abbrev S4096x256 : Shape := ⟨2, ![4096, 256]⟩
abbrev S4096x1 : Shape := ⟨2, ![4096, 1]⟩
abbrev S1x1 : Shape := ⟨2, ![1, 1]⟩
abbrev S32x256 : Shape := ⟨2, ![32, 256]⟩
abbrev S32x1 : Shape := ⟨2, ![32, 1]⟩
abbrev S1x32x256 : Shape := ⟨3, ![1, 32, 256]⟩
abbrev S1 : Shape := ⟨1, ![1]⟩
abbrev S1x1x1 : Shape := ⟨3, ![1, 1, 1]⟩
abbrev S32x256x1 : Shape := ⟨3, ![32, 256, 1]⟩
abbrev S32x1x256 : Shape := ⟨3, ![32, 1, 256]⟩
abbrev S32x256x256 : Shape := ⟨3, ![32, 256, 256]⟩
abbrev S1x32x256x256 : Shape := ⟨4, ![1, 32, 256, 256]⟩
abbrev S1x1x1x1 : Shape := ⟨4, ![1, 1, 1, 1]⟩
abbrev S_ : Shape := ⟨0, ![]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S1x1, .f32⟩
  | .hbm, ⟨3, _⟩ => ⟨S_, .f32⟩
  | .local _ .vmem, ⟨0, _⟩ => ⟨S32x256, .f32⟩
  | .local _ .vmem, ⟨1, _⟩ => ⟨S32x256, .f32⟩
  | .local _ .vmem, ⟨2, _⟩ => ⟨S32x1, .f32⟩
  | .local _ .vmem, ⟨3, _⟩ => ⟨S32x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v34 : BitVec 1 := Scalar.cmpi .eq arg0 c127_i32
  let v35 : BitVec 32 := Scalar.extui v34
  let c0_i32_13 : BitVec 32 := 0#32
  let v36 : BitVec 1 := Scalar.cmpi .ne v35 c0_i32_13
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S32x256_S32x256_0_0 : ∀ a, (![0, 0] : Fin 2 → Nat) a + S32x256.size a ≤ S32x256.size a
  h_S32x256 : 0 < S32x256.numel
  inb_S32x1_S32x1_0_0 : ∀ a, (![0, 0] : Fin 2 → Nat) a + S32x1.size a ≤ S32x1.size a
  h_S32x1 : 0 < S32x1.numel
  broadcasts_S32x1_S32x256 : S32x1.Broadcasts S32x256
  shapeCasts_S32x256_S1x32x256 : S32x256.ShapeCasts S1x32x256
  reduces_S1x32x256_S1 : S1x32x256.Reduces [1, 2] S1
  shapeCasts_S1_S1x1x1 : S1.ShapeCasts S1x1x1
  inpos_S1x1x1_p0_0_0 : ∀ a, (![0, 0, 0] : Fin 3 → Nat) a < S1x1x1.size a
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  shapeCasts_S32x256x256_S1x32x256x256 : S32x256x256.ShapeCasts S1x32x256x256
  reduces_S1x32x256x256_S1 : S1x32x256x256.Reduces [1, 2, 3] S1
  shapeCasts_S1_S1x1x1x1 : S1.ShapeCasts S1x1x1x1
  inpos_S1x1x1x1_p0_0_0_0 : ∀ a, (![0, 0, 0, 0] : Fin 4 → Nat) a < S1x1x1x1.size a
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S4096x256.size a
  hwx0_0 : ∀ i : grid0.Coords, EltTy.bits .f32 = 32 ∨ (Rect.block (s := S4096x256) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .f32 = 32 ∨ (Rect.block (s := S4096x1) S32x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S4096x1 : Shape := ⟨2, ![4096, 1]⟩
abbrev S_ : Shape := ⟨0, ![]⟩
abbrev S4096x1x256 : Shape := ⟨3, ![4096, 1, 256]⟩
abbrev S4096x256x1 : Shape := ⟨3, ![4096, 256, 1]⟩
abbrev S4096x256x256 : Shape := ⟨3, ![4096, 256, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1, .f32⟩
  | .hbm, ⟨2, _⟩ => ⟨S4096x256, .f32⟩
  | .hbm, ⟨3, _⟩ => ⟨S4096x256, .f32⟩
  | .hbm, ⟨4, _⟩ => ⟨S4096x256, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x1x256, .f32⟩
  | .hbm, ⟨10, _⟩ => ⟨S4096x256x1, .f32⟩
  | .hbm, ⟨11, _⟩ => ⟨S4096x256x256, .f32⟩
  | .hbm, ⟨12, _⟩ => ⟨S4096x256x256, .f32⟩
  | .hbm, ⟨13, _⟩ => ⟨S4096x256x256, .f32⟩
  | .hbm, ⟨14, _⟩ => ⟨S4096x256x256, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S4096x1_S4096x256_0_1 : S4096x1.BroadcastsInDim S4096x256 (![0, 1] : Fin 2 → Fin S4096x256.rank)
  reducesTo_S4096x256_S_d0_1 : S4096x256.ReducesTo [0, 1] S_
  h_S_ : 0 < S_.numel
  bcast_S4096x256_S4096x1x256_0_2 : S4096x256.BroadcastsInDim S4096x1x256 (![0, 2] : Fin 2 → Fin S4096x1x256.rank)
  bcast_S4096x256_S4096x256x1_0_1 : S4096x256.BroadcastsInDim S4096x256x1 (![0, 1] : Fin 2 → Fin S4096x256x1.rank)
  bcast_S4096x1x256_S4096x256x256_0_1_2 : S4096x1x256.BroadcastsInDim S4096x256x256 (![0, 1, 2] : Fin 3 → Fin S4096x256x256.rank)
  bcast_S4096x256x1_S4096x256x256_0_1_2 : S4096x256x1.BroadcastsInDim S4096x256x256 (![0, 1, 2] : Fin 3 → Fin S4096x256x256.rank)
  reducesTo_S4096x256x256_S_d0_1_2 : S4096x256x256.ReducesTo [0, 1, 2] S_

variable [Facts₀]

class Facts : Prop extends Facts₀ where

variable [Facts]
-- ==== Proof.Pieces.lean ====
/-
  What the kernel's body leaves behind at one grid point, as values, at any float instance.

  The body keeps two running totals in scratch, one per sum of the loss. At the first point it stores zero into each and
  then adds the tile's term to what it reads back; at every later point it adds the tile's term to the total the point
  before left; at the last point it also divides the two totals it has just stored and writes their difference to the
  output block. Each statement below reads one buffer's final contents back as the body's arithmetic (a payload of the
  generated skeleton) applied to the tile's two input blocks and the totals carried in: a buffer written by covering
  stores holds the last one, and a load of a buffer just stored whole reads what was stored.
-/
import proofs.«179768_j17386027614770_1_alg».proof.Proof.Gen.KernelIdeal.Frame
import Idealize.ShloMosaic.Lib.Pipeline.Value
import Idealize.ShloMosaic.Lib.Tactic

noncomputable section
open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- Every store and load of the body is at offset zero of a whole buffer. -/
theorem hz : (![0, 0] : Fin 2 → Nat) = fun _ => 0 := funext fun a => by fin_cases a <;> rfl

/-- First point: the first scratch ends at the tile's term added to the zero just stored. -/
theorem sA0 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 : Vec F S32x256 .f32) (x1 : Vec F S32x1 .f32) :
    sout0_A_0 c i a1 h1 a2 h2 a3 h3 a4 h4 a5 h5 hc0 hc1 x0 x1 = k0_pay3 x0 x1 k0_pay1 := by
  unfold sout0_A_0
  rw [View.read_writes_eq_canon _ _ _ (scover0_A_0 c i a1 h1 a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S32x256) hz, View.ld_unit_zero (S := S32x1) hz]

/-- First point: likewise the second scratch. -/
theorem sA1 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : cond0_0 i) (hc1 : ¬cond0_1 i) (x0 : Vec F S32x256 .f32) (x1 : Vec F S32x1 .f32) :
    sout0_A_1 c i a1 h1 a2 h2 a3 h3 a4 h4 a5 h5 hc0 hc1 x0 x1 = k0_pay4 x0 k0_pay2 := by
  unfold sout0_A_1
  rw [View.read_writes_eq_canon _ _ _ (scover0_A_1 c i a1 h1 a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h1.read_unread, h2.read_unread,
    View.ld_unit_zero (S := S32x256) hz, View.ld_unit_zero (S := S32x1) hz]

/-- Case B: the first scratch is left at its one covering store, the running total it held plus this tile's term. -/
theorem sB0 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 : Vec F S32x256 .f32) (x1 : Vec F S32x1 .f32) (xs0 xs1 : Vec F S1x1 .f32) :
    sout0_B_0 c i a1 h1 a2 h2 a3 h3 a4 h4 a5 h5 hc0 hc1 x0 x1 xs0 xs1 = k0_pay3 x0 x1 xs0 := by
  unfold sout0_B_0
  rw [View.read_writes_eq_canon _ _ _ (scover0_B_0 c i a1 h1 a2 h2 a3 h3 a4 h4 a5 h5 hc0 hc1 x0 x1 xs0 xs1)]
  unfold kernelRun0_B
  dsimp only
  rw [View.canon_unit_zero hz]
  simp only [View.readAt_eq_ld, h1.read_unread, h2.read_unread, h4.read_unread, h5.read_unread,
    View.ld_unit_zero (S := S32x256) hz, View.ld_unit_zero (S := S32x1) hz, View.ld_unit_zero (S := S1x1) hz]

/-- Case B: likewise the second scratch. -/
theorem sB1 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : ¬cond0_1 i) (x0 : Vec F S32x256 .f32) (x1 : Vec F S32x1 .f32) (xs0 xs1 : Vec F S1x1 .f32) :
    sout0_B_1 c i a1 h1 a2 h2 a3 h3 a4 h4 a5 h5 hc0 hc1 x0 x1 xs0 xs1 = k0_pay4 x0 xs1 := by
  unfold sout0_B_1
  rw [View.read_writes_eq_canon _ _ _ (scover0_B_1 c i a1 h1 a2 h2 a3 h3 a4 h4 a5 h5 hc0 hc1 x0 x1 xs0 xs1)]
  unfold kernelRun0_B
  dsimp only
  rw [View.canon_unit_zero hz]
  simp only [View.readAt_eq_ld, h1.read_unread, h2.read_unread, h4.read_unread, h5.read_unread,
    View.ld_unit_zero (S := S32x256) hz, View.ld_unit_zero (S := S32x1) hz, View.ld_unit_zero (S := S1x1) hz]

/-- Case C: the first scratch is left at its one covering store, the running total it held plus this tile's term. -/
theorem sC0 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 : Vec F S32x256 .f32) (x1 : Vec F S32x1 .f32) (xs0 xs1 : Vec F S1x1 .f32) :
    sout0_C_0 c i a1 h1 a2 h2 a3 h3 a4 h4 a5 h5 hc0 hc1 x0 x1 xs0 xs1 = k0_pay3 x0 x1 xs0 := by
  unfold sout0_C_0
  rw [View.read_writes_eq_canon _ _ _ (scover0_C_0 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S32x256) hz, View.ld_unit_zero (S := S32x1) hz, View.ld_unit_zero (S := S1x1) hz]

/-- Case C: likewise the second scratch. -/
theorem sC1 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 : Vec F S32x256 .f32) (x1 : Vec F S32x1 .f32) (xs0 xs1 : Vec F S1x1 .f32) :
    sout0_C_1 c i a1 h1 a2 h2 a3 h3 a4 h4 a5 h5 hc0 hc1 x0 x1 xs0 xs1 = k0_pay4 x0 xs1 := by
  unfold sout0_C_1
  rw [View.read_writes_eq_canon _ _ _ (scover0_C_1 c i a1 h1 a2 h2 a3 h3 a4 h4 a5 h5 hc0 hc1 x0 x1 xs0 xs1)]
  unfold kernelRun0_C
  dsimp only
  sl_unfold_words
  rw [View.canon_unit_zero hz]
  simp only [View.readAt_eq_ld, h1.read_unread, h2.read_unread, h4.read_unread, h5.read_unread,
    View.ld_unit_zero (S := S32x256) hz, View.ld_unit_zero (S := S32x1) hz, View.ld_unit_zero (S := S1x1) hz]

/-- Last point: the output block is the two totals just stored, each divided, subtracted. -/
theorem oC2 (c : Dev nD) (i : grid0.Coords) (a1 : Memref sig .tc .vmem S32x256 .f32) (h1 : a1.IsWhole)
    (a2 : Memref sig .tc .vmem S32x1 .f32) (h2 : a2.IsWhole) (a3 : Memref sig .tc .vmem S1x1 .f32) (h3 : a3.IsWhole)
    (a4 : Memref sig .tc .vmem S1x1 .f32) (h4 : a4.IsWhole) (a5 : Memref sig .tc .vmem S1x1 .f32) (h5 : a5.IsWhole)
    (hc0 : ¬cond0_0 i) (hc1 : cond0_1 i) (x0 : Vec F S32x256 .f32) (x1 : Vec F S32x1 .f32) (xs0 xs1 : Vec F S1x1 .f32) :
    out0_C_2 c i a1 h1 a2 h2 a3 h3 a4 h4 a5 h5 hc0 hc1 x0 x1 xs0 xs1 = k0_pay5 (k0_pay3 x0 x1 xs0) (k0_pay4 x0 xs1) := by
  unfold out0_C_2
  rw [View.read_writes_eq_canon _ _ _ (cover0_C_2 c i a1 h1 a2 h2 a3 h3 a4 h4 a5 h5 hc0 hc1 x0 x1 xs0 xs1)]
  unfold kernelRun0_C
  dsimp only
  sl_unfold_words
  rw [View.canon_unit_zero hz]
  simp only [View.readCov_unit_zero (S := S1x1) _ hz, View.readAt_eq_ld, h1.read_unread, h2.read_unread, h4.read_unread,
    h5.read_unread, View.ld_unit_zero (S := S32x256) hz, View.ld_unit_zero (S := S32x1) hz, View.ld_unit_zero (S := S1x1) hz]

end Cert.KernelIdeal.Pieces
end
-- ==== Proof.Spec.lean ====
/-
  The mathematics of the continuous ranked probability loss, with no program in sight.

  For an array x of 4096 rows of 256 ensemble members and a column y of 4096 targets, over the extended reals,

      crps x y = (0 + Σ_{i,k} |x[i,k] − y[i]|) / 2^20 − (0 + Σ_{i,k,l} |x[i,k] − x[i,l]|) / 2^29,

  the two divisors kept as the binary words that denote them and the zero as its word, so that neither is ever evaluated.
  Three laws of finite sums over a commutative monoid are all the algebra the two programs need, and none of them needs
  a finite summand, since addition of extended reals is commutative and associative at the infinities too:
    * the 4096 rows are 128 consecutive tiles of 32 rows, so a sum over all rows is the sum over the tiles of the sum
      over a tile's rows (`sum_tiles2`, `sum_tiles3`);
    * the pair sum does not see which of its two ensemble axes is named first (`sum_swap`);
    * a running total started at z and fed one term per step is z plus the sum of the terms fed (`chain_eq`).
-/
import Idealize.ShloMosaic.PureOps.Ideal
import Idealize.ShloMosaic.PureOps.Ideal.Laws
import Idealize.ShloMosaic.Lib.ValueIdx

noncomputable section

namespace Cert.Crps

open Idealize.ShloMosaic Idealize.ShloMosaic.ValueIdx

/-- The whole arrays' shapes: the ensemble, the targets, the pairs. -/
abbrev X2 : Shape := ⟨2, ![4096, 256]⟩
abbrev Y2 : Shape := ⟨2, ![4096, 1]⟩
abbrev X3 : Shape := ⟨3, ![4096, 256, 256]⟩
/-- One tile of 32 rows of each. -/
abbrev T2 : Shape := ⟨2, ![32, 256]⟩
abbrev T1 : Shape := ⟨2, ![32, 1]⟩
abbrev T3 : Shape := ⟨3, ![32, 256, 256]⟩

/-- The zero both programs start their sums from, and the two divisors 2^20 and 2^29, as their words. -/
abbrev Z : EReal := Ideal.ofBits .f32 0x00000000#32
abbrev C20 : EReal := Ideal.ofBits .f32 0x49800000#32
abbrev C29 : EReal := Ideal.ofBits .f32 0x4E000000#32

/-- The absolute value on the extended reals, as both programs compute it. -/
abbrev absE (a : EReal) : EReal := max a (-a)

/-- Σ_{i,k} |x[i,k] − y[i]| over the whole arrays. -/
def maeTotal (x : X2.Idx → EReal) (y : Y2.Idx → EReal) : EReal :=
  ∑ i : X2.Idx, absE (x i - y (ix2 (i 0) (0 : Fin 1)))

/-- Σ_{i,k,l} |x[i,k] − x[i,l]| over the whole array. -/
def mixTotal (x : X2.Idx → EReal) : EReal :=
  ∑ i : X3.Idx, absE (x (ix2 (i 0) (i 1)) - x (ix2 (i 0) (i 2)))

/-- The loss. -/
def crps (x : X2.Idx → EReal) (y : Y2.Idx → EReal) : EReal :=
  Ideal.div (Z + maeTotal x y) C20 - Ideal.div (Z + mixTotal x) C29

/-- The same two sums over one tile of 32 rows. -/
def maeTile (x : T2.Idx → EReal) (y : T1.Idx → EReal) : EReal :=
  ∑ j : T2.Idx, absE (x j - y (ix2 (j 0) (0 : Fin 1)))

def mixTile (x : T2.Idx → EReal) : EReal :=
  ∑ j : T3.Idx, absE (x (ix2 (j 0) (j 1)) - x (ix2 (j 0) (j 2)))

/-! ## Rows by tiles -/

/-- Row `r` of tile `t` is row `32 t + r` of the array. -/
abbrev row (t : Fin 128) (r : Fin 32) : Fin 4096 := ⟨32 * t.val + r.val, by have := t.isLt; have := r.isLt; omega⟩

/-- Entry `j` of tile `t` of the ensemble, as an entry of the whole array; likewise of the targets and of the pairs. -/
abbrev at2 (t : Fin 128) (j : T2.Idx) : X2.Idx := ix2 (row t (j 0)) (j 1 : Fin 256)
abbrev at1 (t : Fin 128) (j : T1.Idx) : Y2.Idx := ix2 (row t (j 0)) (j 1 : Fin 1)
abbrev at3 (t : Fin 128) (j : T3.Idx) : X3.Idx := ix3 (row t (j 0)) (j 1 : Fin 256) (j 2 : Fin 256)

/-- Every entry of the ensemble lies in exactly one tile. -/
def tiles2 : Fin 128 × T2.Idx ≃ X2.Idx where
  toFun p := at2 p.1 p.2
  invFun i := (⟨(i 0).val / 32, by have : (i 0).val < 4096 := (i 0).isLt; omega⟩,
    ix2 (⟨(i 0).val % 32, Nat.mod_lt _ (by decide)⟩ : Fin 32) (i 1 : Fin 256))
  left_inv p := by
    obtain ⟨t, j⟩ := p
    have h0 : (j 0).val < 32 := (j 0).isLt
    refine Prod.ext (Fin.ext ?_) (funext fun a => ?_)
    · show (32 * t.val + (j 0).val) / 32 = t.val
      omega
    · match a with
      | ⟨0, _⟩ => exact Fin.ext (by show (32 * t.val + (j 0).val) % 32 = (j 0).val; omega)
      | ⟨1, _⟩ => rfl
  right_inv i := by
    funext a
    match a with
    | ⟨0, _⟩ => exact Fin.ext (by show 32 * ((i 0).val / 32) + (i 0).val % 32 = (i 0).val; omega)
    | ⟨1, _⟩ => rfl

/-- Every pair lies in exactly one tile. -/
def tiles3 : Fin 128 × T3.Idx ≃ X3.Idx where
  toFun p := at3 p.1 p.2
  invFun i := (⟨(i 0).val / 32, by have : (i 0).val < 4096 := (i 0).isLt; omega⟩,
    ix3 (⟨(i 0).val % 32, Nat.mod_lt _ (by decide)⟩ : Fin 32) (i 1 : Fin 256) (i 2 : Fin 256))
  left_inv p := by
    obtain ⟨t, j⟩ := p
    have h0 : (j 0).val < 32 := (j 0).isLt
    refine Prod.ext (Fin.ext ?_) (funext fun a => ?_)
    · show (32 * t.val + (j 0).val) / 32 = t.val
      omega
    · match a with
      | ⟨0, _⟩ => exact Fin.ext (by show (32 * t.val + (j 0).val) % 32 = (j 0).val; omega)
      | ⟨1, _⟩ => rfl
      | ⟨2, _⟩ => rfl
  right_inv i := by
    funext a
    match a with
    | ⟨0, _⟩ => exact Fin.ext (by show 32 * ((i 0).val / 32) + (i 0).val % 32 = (i 0).val; omega)
    | ⟨1, _⟩ => rfl
    | ⟨2, _⟩ => rfl

variable {M : Type*} [AddCommMonoid M]

/-- A sum over the ensemble's entries is the sum over the tiles of the sum over a tile's entries. -/
theorem sum_tiles2 (f : X2.Idx → M) : ∑ t : Fin 128, ∑ j : T2.Idx, f (at2 t j) = ∑ i : X2.Idx, f i := by
  rw [← Fintype.sum_prod_type' (f := fun t j => f (at2 t j))]
  exact Equiv.sum_comp tiles2 f

/-- The same for the pairs. -/
theorem sum_tiles3 (f : X3.Idx → M) : ∑ t : Fin 128, ∑ j : T3.Idx, f (at3 t j) = ∑ i : X3.Idx, f i := by
  rw [← Fintype.sum_prod_type' (f := fun t j => f (at3 t j))]
  exact Equiv.sum_comp tiles3 f

/-! ## The pair sum is symmetric in its two ensemble axes -/

/-- A pair with its two ensemble coordinates exchanged. -/
abbrev swap (i : X3.Idx) : X3.Idx := ix3 (i 0 : Fin 4096) (i 2 : Fin 256) (i 1 : Fin 256)

theorem swap_swap (i : X3.Idx) : swap (swap i) = i := by
  funext a
  match a with
  | ⟨0, _⟩ => rfl
  | ⟨1, _⟩ => rfl
  | ⟨2, _⟩ => rfl

/-- Summing over all pairs, it does not matter which member of a pair is named first. -/
theorem sum_swap (f : X3.Idx → M) : ∑ i : X3.Idx, f (swap i) = ∑ i : X3.Idx, f i :=
  Equiv.sum_comp (Function.Involutive.toPerm swap swap_swap) f

/-! ## A running total is its start plus what it was fed -/

/-- A total started at `z + p 0` and fed `p (n + 1)` at step `n + 1`. -/
def chain (z : M) (p : ℕ → M) : ℕ → M
  | 0 => z + p 0
  | n + 1 => chain z p n + p (n + 1)

theorem chain_eq (z : M) (p : ℕ → M) (n : ℕ) : chain z p n = z + ∑ t ∈ Finset.range (n + 1), p t := by
  induction n with
  | zero => simp [chain]
  | succ n ih => rw [chain, ih, Finset.sum_range_succ _ (n + 1), add_assoc]

/-! ## The loss by tiles -/

/-- The loss from the two totals accumulated tile by tile: with `x`'s and `y`'s tiles read off the whole arrays, the
    per-tile sums add up to the whole sums. -/
theorem maeTotal_eq_tiles (x : X2.Idx → EReal) (y : Y2.Idx → EReal) :
    ∑ t : Fin 128, maeTile (fun j => x (at2 t j)) (fun j => y (at1 t j)) = maeTotal x y := by
  unfold maeTile maeTotal
  exact sum_tiles2 (fun i => absE (x i - y (ix2 (i 0) (0 : Fin 1))))

theorem mixTotal_eq_tiles (x : X2.Idx → EReal) :
    ∑ t : Fin 128, mixTile (fun j => x (at2 t j)) = mixTotal x := by
  unfold mixTile mixTotal
  exact sum_tiles3 (fun i => absE (x (ix2 (i 0) (i 1)) - x (ix2 (i 0) (i 2))))

end Cert.Crps

end
-- ==== Proof.Payload.lean ====
/-
  The body's arithmetic read at the ideal instance, where a float is an extended real and every operation exact.

  One tile of the kernel holds 32 rows x of the ensemble and their 32 targets y. The body's five stored values are:
  zero (twice); the first running total plus Σ_{r,k} |x[r,k] − y[r]| over the tile; the second running total plus
  Σ_{r,k,l} |x[r,k] − x[r,l]| over the tile; and, of the two totals, the first over 2^20 minus the second over 2^29.
  A reduction of a block over all its long axes is the sum of all its entries; a reshape only renames the entries, so the
  sum passes through it; the column of targets broadcast along a row reads the row's target; and the block viewed as
  [32,256,1] or [32,1,256] and broadcast to [32,256,256] reads x[r,k] or x[r,l] at (r,k,l).
-/
import proofs.«179768_j17386027614770_1_alg».proof.Proof.Gen.KernelIdeal.Skeleton
import proofs.«179768_j17386027614770_1_alg».proof.Proof.Spec
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx Cert.KernelIdeal Cert.KernelIdeal.Gen Cert.Crps

/-- A reshape renames the entries one to one, so the sum of all entries is the same before and after. -/
theorem sum_shapeCast {s t : Shape} (v : s.Idx → EReal) (h : s.ShapeCasts t) :
    ∑ i : t.Idx, shapeCast t v h i = ∑ k : s.Idx, v k :=
  Equiv.sum_comp (Shape.reshapeEquiv h) v

/-- The sum over the two long axes of a [1,32,256] block, into its one entry, is the sum of all the block's entries. -/
theorem sumAll3 (v : FVec Ideal S1x32x256 .f32) (j : S1.Idx) :
    multiReduction .add [1, 2] S1 v 0x00000000#32 reduces_S1x32x256_S1 (.inl rfl) rfl j = ∑ i : S1x32x256.Idx, v i :=
  Ideal.multiReduction_add_total v _ reduces_S1x32x256_S1 (fun b => by fin_cases b; rfl) (.inl rfl) rfl j

/-- The same over the three long axes of a [1,32,256,256] block. -/
theorem sumAll4 (v : FVec Ideal S1x32x256x256 .f32) (j : S1.Idx) :
    multiReduction .add [1, 2, 3] S1 v 0x00000000#32 reduces_S1x32x256x256_S1 (.inl rfl) rfl j = ∑ i : S1x32x256x256.Idx, v i :=
  Ideal.multiReduction_add_total v _ reduces_S1x32x256x256_S1 (fun b => by fin_cases b; rfl) (.inl rfl) rfl j

/-- The targets' column broadcast along the rows reads, at (r, k), row r's target. -/
theorem target_at (y : S32x1.Idx → EReal) (h : S32x1.Broadcasts S32x256) (k : S32x256.Idx) :
    broadcastTo S32x256 y h k = y (ix2 (k 0 : Fin 32) (0 : Fin 1)) :=
  broadcastTo_apply y h k _ (fun a => match a with
    | ⟨0, _⟩ => by show (k 0).val = if (32 : Nat) = 1 then 0 else (k 0).val; rw [if_neg (by decide)]
    | ⟨1, _⟩ => by show 0 = if (1 : Nat) = 1 then 0 else (k 1).val; rw [if_pos rfl])

/-- The tile viewed as [32,256,1] and broadcast along the last axis reads, at (r, k, l), x[r, k]. -/
theorem first_at (x : S32x256.Idx → EReal) (h1 : S32x256.ShapeCasts S32x256x1) (h2 : S32x256x1.Broadcasts S32x256x256)
    (k : S32x256x256.Idx) :
    broadcastTo S32x256x256 (shapeCast S32x256x1 x h1) h2 k = x (ix2 (k 0 : Fin 32) (k 1 : Fin 256)) := by
  refine (broadcastTo_apply _ h2 k (ix3 (k 0 : Fin 32) (k 1 : Fin 256) (0 : Fin 1)) (fun a => match a with
    | ⟨0, _⟩ => by show (k 0).val = if (32 : Nat) = 1 then 0 else (k 0).val; rw [if_neg (by decide)]
    | ⟨1, _⟩ => by show (k 1).val = if (256 : Nat) = 1 then 0 else (k 1).val; rw [if_neg (by decide)]
    | ⟨2, _⟩ => by show 0 = if (1 : Nat) = 1 then 0 else (k 2).val; rw [if_pos rfl])).trans ?_
  refine shapeCast_apply x h1 _ _ ?_
  rw [Shape.rowMajor_val_two, Shape.rowMajor_val_three]
  show (k 0).val * 256 + (k 1).val = ((k 0).val * 256 + (k 1).val) * 1 + 0
  omega

/-- The tile viewed as [32,1,256] and broadcast along the middle axis reads, at (r, k, l), x[r, l]. -/
theorem second_at (x : S32x256.Idx → EReal) (h1 : S32x256.ShapeCasts S32x1x256) (h2 : S32x1x256.Broadcasts S32x256x256)
    (k : S32x256x256.Idx) :
    broadcastTo S32x256x256 (shapeCast S32x1x256 x h1) h2 k = x (ix2 (k 0 : Fin 32) (k 2 : Fin 256)) := by
  refine (broadcastTo_apply _ h2 k (ix3 (k 0 : Fin 32) (0 : Fin 1) (k 2 : Fin 256)) (fun a => match a with
    | ⟨0, _⟩ => by show (k 0).val = if (32 : Nat) = 1 then 0 else (k 0).val; rw [if_neg (by decide)]
    | ⟨1, _⟩ => by show 0 = if (1 : Nat) = 1 then 0 else (k 1).val; rw [if_pos rfl]
    | ⟨2, _⟩ => by show (k 2).val = if (256 : Nat) = 1 then 0 else (k 2).val; rw [if_neg (by decide)])).trans ?_
  refine shapeCast_apply x h1 _ _ ?_
  rw [Shape.rowMajor_val_two, Shape.rowMajor_val_three]
  show (k 0).val * 256 + (k 2).val = ((k 0).val * 1 + 0) * 256 + (k 2).val
  omega

/-- Reading one entry of a block, and reading a reshaped block at an index, by definition. -/
theorem extractAt_eq {s : Shape} {α : Type} (pos : Fin s.rank → Nat) (x : s.Idx → α) (h : ∀ a, pos a < s.size a) :
    extractAt pos x h = x (fun a => ⟨pos a, h a⟩) := rfl

theorem shapeCast_at {s t : Shape} {α : Type} (x : s.Idx → α) (h : s.ShapeCasts t) (j : t.Idx) :
    shapeCast t x h j = x (Shape.reshapeEquiv h j) := rfl

/-- The two zero stores of the first point. -/
theorem zero1 (j : S1x1.Idx) : k0_pay1 (F := Ideal) j = Z := by
  unfold k0_pay1
  rw [shapeCast_self, broadcast_apply]
  rfl

theorem zero2 (j : S1x1.Idx) : k0_pay2 (F := Ideal) j = Z := by
  unfold k0_pay2
  rw [shapeCast_self, broadcast_apply]
  rfl

/-- One entry of the tile's |x − y|. -/
theorem mae_entry (x : FVec Ideal S32x256 .f32) (y : FVec Ideal S32x1 .f32) (h : S32x1.Broadcasts S32x256) (k : S32x256.Idx) :
    absf (F := Ideal) (subf (F := Ideal) x (broadcastTo S32x256 y h)) k = absE (x k - y (ix2 (k 0 : Fin 32) (0 : Fin 1))) := by
  show absE (x k - broadcastTo S32x256 y h k) = _
  rw [target_at]

/-- One entry of the tile's |x[r,k] − x[r,l]|. -/
theorem mix_entry (x : FVec Ideal S32x256 .f32) (h1 : S32x256.ShapeCasts S32x256x1) (h2 : S32x256x1.Broadcasts S32x256x256)
    (h3 : S32x256.ShapeCasts S32x1x256) (h4 : S32x1x256.Broadcasts S32x256x256) (k : S32x256x256.Idx) :
    absf (F := Ideal) (subf (F := Ideal) (broadcastTo S32x256x256 (shapeCast S32x256x1 x h1) h2) (broadcastTo S32x256x256 (shapeCast S32x1x256 x h3) h4)) k
      = absE (x (ix2 (k 0 : Fin 32) (k 1 : Fin 256)) - x (ix2 (k 0 : Fin 32) (k 2 : Fin 256))) := by
  show absE (broadcastTo S32x256x256 (shapeCast S32x256x1 x h1) h2 k - broadcastTo S32x256x256 (shapeCast S32x1x256 x h3) h4 k) = _
  rw [first_at, second_at]

/-- The first total after a tile: what it held plus the tile's Σ |x − y|. -/
theorem mae_step (x : Vec Ideal S32x256 .f32) (y : Vec Ideal S32x1 .f32) (a : Vec Ideal S1x1 .f32) (j : S1x1.Idx) :
    k0_pay3 (F := Ideal) x y a j = a j + maeTile x y := by
  unfold k0_pay3
  dsimp only
  rw [shapeCast_self, addf_apply, broadcast_apply, extractAt_eq, shapeCast_at, sumAll3, sum_shapeCast]
  refine congrArg (fun z => a j + z) ?_
  unfold maeTile
  exact Fintype.sum_congr _ _ fun k => mae_entry x y _ k

/-- The second total after a tile: what it held plus the tile's Σ |x[r,k] − x[r,l]|. -/
theorem mix_step (x : Vec Ideal S32x256 .f32) (a : Vec Ideal S1x1 .f32) (j : S1x1.Idx) :
    k0_pay4 (F := Ideal) x a j = a j + mixTile x := by
  unfold k0_pay4
  dsimp only
  rw [shapeCast_self, addf_apply, broadcast_apply, extractAt_eq, shapeCast_at, sumAll4, sum_shapeCast]
  refine congrArg (fun z => a j + z) ?_
  unfold mixTile
  exact Fintype.sum_congr _ _ fun k => mix_entry x _ _ _ _ k

/-- The output of the last point from the two totals. -/
theorem finish (a b : Vec Ideal S1x1 .f32) (j : S1x1.Idx) :
    k0_pay5 (F := Ideal) a b j = Ideal.div (a j) C20 - Ideal.div (b j) C29 := by
  unfold k0_pay5
  rw [subf_apply, divf_apply, divf_apply, broadcast_apply, broadcast_apply]
  rfl

end Cert.KernelIdeal.Payload

end
-- ==== Proof.Totals.lean ====
/-
  The two running totals, point by point, at the ideal instance.

  The grid has 128 points, one per tile of 32 rows, visited in order. After point n the first scratch holds
  0 + Σ_{t ≤ n} (tile t's Σ |x − y|) and the second 0 + Σ_{t ≤ n} (tile t's Σ |x[r,k] − x[r,l]|): the first point stores
  the zero and adds its tile's term, every later point adds its tile's term to what the point before left — an induction
  on the point, with the running total of Spec. At the last point the output block is the first total over 2^20 minus
  the second over 2^29.
-/
import proofs.«179768_j17386027614770_1_alg».proof.Proof.Gen.KernelIdeal.Frame
import proofs.«179768_j17386027614770_1_alg».proof.Proof.Pieces
import proofs.«179768_j17386027614770_1_alg».proof.Proof.Payload
import proofs.«179768_j17386027614770_1_alg».proof.Proof.Spec

noncomputable section

namespace Cert.KernelIdeal.Totals

open Idealize.ShloMosaic Idealize.ShloMosaic.TcCoe Idealize.SL.Sem
open Cert.KernelIdeal Cert.KernelIdeal.Gen Cert.Crps

variable (m : (ℓ : Loc nD τ sig) → Buf (Elt Ideal) ℓ)

/-- Tile n's term of each sum, read off the blocks the pipeline stages at point n (nothing beyond the grid). -/
def maeAt (c : Dev nD) (n : ℕ) : EReal :=
  if h : n < cfg0.N then maeTile (iblk m c 0 ⟨n, h⟩) (iblk m c 1 ⟨n, h⟩) else 0

def mixAt (c : Dev nD) (n : ℕ) : EReal :=
  if h : n < cfg0.N then mixTile (iblk m c 0 ⟨n, h⟩) else 0

theorem maeAt_of_lt (c : Dev nD) (n : ℕ) (h : n < cfg0.N) :
    maeAt m c n = maeTile (iblk m c 0 ⟨n, h⟩) (iblk m c 1 ⟨n, h⟩) := dif_pos h

theorem mixAt_of_lt (c : Dev nD) (n : ℕ) (h : n < cfg0.N) : mixAt m c n = mixTile (iblk m c 0 ⟨n, h⟩) := dif_pos h

/-- The first point leaves each scratch at its tile's term added to the zero it has just stored. -/
theorem after_first (c : Dev nD) (t : Fin cfg0.N) (h0 : t.val % 128 = 0) (h1 : ¬t.val % 128 = 127) :
    (outsAt0 m c t.val t.isLt).2.1 = k0_pay3 (iblk m c 0 t) (iblk m c 1 t) (k0_pay1 (F := Ideal))
    ∧ (outsAt0 m c t.val t.isLt).2.2 = k0_pay4 (iblk m c 0 t) (k0_pay2 (F := Ideal)) := by
  rw [outsAt0_A m c t h0 h1]
  exact ⟨Pieces.sA0 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    Pieces.sA1 (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- A point strictly inside the grid adds its tile's term to what the point before left. -/
theorem after_inner (c : Dev nD) (t : Fin cfg0.N) (h0 : ¬t.val % 128 = 0) (h1 : ¬t.val % 128 = 127) :
    (outsAt0 m c t.val t.isLt).2.1 = k0_pay3 (iblk m c 0 t) (iblk m c 1 t) (outsAt0 m c (t.val - 1) (Nat.lt_of_le_of_lt (Nat.sub_le _ _) t.isLt)).2.1
    ∧ (outsAt0 m c t.val t.isLt).2.2 = k0_pay4 (iblk m c 0 t) (outsAt0 m c (t.val - 1) (Nat.lt_of_le_of_lt (Nat.sub_le _ _) t.isLt)).2.2 := by
  rw [outsAt0_B m c t h0 h1]
  exact ⟨Pieces.sB0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
    Pieces.sB1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩

/-- So does the last point, which then also writes the output from the two totals it has just stored. -/
theorem after_last (c : Dev nD) (t : Fin cfg0.N) (h0 : ¬t.val % 128 = 0) (h1 : t.val % 128 = 127) :
    (outsAt0 m c t.val t.isLt).2.1 = k0_pay3 (iblk m c 0 t) (iblk m c 1 t) (outsAt0 m c (t.val - 1) (Nat.lt_of_le_of_lt (Nat.sub_le _ _) t.isLt)).2.1
    ∧ (outsAt0 m c t.val t.isLt).2.2 = k0_pay4 (iblk m c 0 t) (outsAt0 m c (t.val - 1) (Nat.lt_of_le_of_lt (Nat.sub_le _ _) t.isLt)).2.2
    ∧ (outsAt0 m c t.val t.isLt).1 = k0_pay5 (k0_pay3 (iblk m c 0 t) (iblk m c 1 t) (outsAt0 m c (t.val - 1) (Nat.lt_of_le_of_lt (Nat.sub_le _ _) t.isLt)).2.1) (k0_pay4 (iblk m c 0 t) (outsAt0 m c (t.val - 1) (Nat.lt_of_le_of_lt (Nat.sub_le _ _) t.isLt)).2.2) := by
  rw [outsAt0_C m c t h0 h1]
  exact ⟨Pieces.sC0 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
    Pieces.sC1 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
    Pieces.oC2 (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩

/-- One step of either total, over variables: a buffer holding `a` everywhere and fed the term `p`. -/
theorem mae_fed (x : Vec Ideal S32x256 .f32) (y : Vec Ideal S32x1 .f32) (a : Vec Ideal S1x1 .f32) (s : EReal)
    (ha : a = fun _ => s) : k0_pay3 (F := Ideal) x y a = fun _ => s + maeTile x y := by
  subst ha
  funext j
  exact Payload.mae_step x y _ j

theorem mix_fed (x : Vec Ideal S32x256 .f32) (a : Vec Ideal S1x1 .f32) (s : EReal)
    (ha : a = fun _ => s) : k0_pay4 (F := Ideal) x a = fun _ => s + mixTile x := by
  subst ha
  funext j
  exact Payload.mix_step x _ j

theorem zero1_eq : k0_pay1 (F := Ideal) = fun _ => Z := funext Payload.zero1
theorem zero2_eq : k0_pay2 (F := Ideal) = fun _ => Z := funext Payload.zero2

/-- THE TOTALS: after point n each scratch holds, at its one entry, the running total through tile n. -/
theorem totals (c : Dev nD) : ∀ (n : ℕ) (h : n < cfg0.N),
    (outsAt0 m c n h).2.1 = (fun _ => chain Z (maeAt m c) n) ∧ (outsAt0 m c n h).2.2 = (fun _ => chain Z (mixAt m c) n)
  | 0, h => by
    obtain ⟨e0, e1⟩ := after_first m c ⟨0, h⟩ rfl (by show ¬(0 % 128 = 127); decide)
    refine ⟨e0.trans ?_, e1.trans ?_⟩
    · refine (mae_fed (iblk m c 0 ⟨0, h⟩) (iblk m c 1 ⟨0, h⟩) (k0_pay1 (F := Ideal)) Z zero1_eq).trans ?_
      funext _
      show Z + _ = Z + maeAt m c 0
      rw [maeAt_of_lt m c 0 h]
    · refine (mix_fed (iblk m c 0 ⟨0, h⟩) (k0_pay2 (F := Ideal)) Z zero2_eq).trans ?_
      funext _
      show Z + _ = Z + mixAt m c 0
      rw [mixAt_of_lt m c 0 h]
  | n + 1, h => by
    have ih := totals c n (Nat.lt_of_succ_lt h)
    have hN : cfg0.N = 128 := N_0
    have h0 : ¬(⟨n + 1, h⟩ : Fin cfg0.N).val % 128 = 0 := by dsimp only; omega
    have step : (outsAt0 m c (n + 1) h).2.1 = k0_pay3 (iblk m c 0 ⟨n + 1, h⟩) (iblk m c 1 ⟨n + 1, h⟩) (outsAt0 m c n (Nat.lt_of_succ_lt h)).2.1
        ∧ (outsAt0 m c (n + 1) h).2.2 = k0_pay4 (iblk m c 0 ⟨n + 1, h⟩) (outsAt0 m c n (Nat.lt_of_succ_lt h)).2.2 := by
      by_cases h1 : (⟨n + 1, h⟩ : Fin cfg0.N).val % 128 = 127
      · exact ⟨(after_last m c ⟨n + 1, h⟩ h0 h1).1, (after_last m c ⟨n + 1, h⟩ h0 h1).2.1⟩
      · exact after_inner m c ⟨n + 1, h⟩ h0 h1
    refine ⟨step.1.trans ?_, step.2.trans ?_⟩
    · refine (mae_fed (iblk m c 0 ⟨n + 1, h⟩) (iblk m c 1 ⟨n + 1, h⟩) _ _ ih.1).trans ?_
      funext _
      show _ = chain Z (maeAt m c) n + maeAt m c (n + 1)
      rw [maeAt_of_lt m c (n + 1) h]
    · refine (mix_fed (iblk m c 0 ⟨n + 1, h⟩) _ _ ih.2).trans ?_
      funext _
      show _ = chain Z (mixAt m c) n + mixAt m c (n + 1)
      rw [mixAt_of_lt m c (n + 1) h]

/-- The output block after the last point: the first total over 2^20 minus the second over 2^29. -/
theorem last_out (c : Dev nD) (t : Fin cfg0.N) (h1 : t.val % 128 = 127) :
    (outsAt0 m c t.val t.isLt).1
      = fun _ => Ideal.div (chain Z (maeAt m c) t.val) C20 - Ideal.div (chain Z (mixAt m c) t.val) C29 := by
  have h0 : ¬t.val % 128 = 0 := by omega
  obtain ⟨e0, e1, e2⟩ := after_last m c t h0 h1
  rw [e2, ← e0, ← e1, (totals m c t.val t.isLt).1, (totals m c t.val t.isLt).2]
  funext j
  exact Payload.finish _ _ j

end Cert.KernelIdeal.Totals

end
-- ==== Proof.Result.lean ====
/-
  The kernel's result, at the ideal instance: what @main's result buffer holds after the run.

  Point t of the grid stages rows 32t … 32t+31 of the ensemble and of the targets, so the per-tile terms the two scratch
  totals collect are, together, the whole sums of the loss (Spec: the tiles cover the rows). The output window is one
  [1,1] block that is written back once, after the last point, and that block is the whole output array; the host line
  after the region reshapes that [1,1] array to a scalar, which keeps its one entry.
-/
import proofs.«179768_j17386027614770_1_alg».proof.Proof.Gen.KernelIdeal.Frame
import proofs.«179768_j17386027614770_1_alg».proof.Proof.Totals
import Idealize.ShloMosaic.Lib.Pipeline.Value
import Idealize.ShloMosaic.Lib.StableHlo.Run
import Idealize.ShloMosaic.Lib.Tactic

noncomputable section

namespace Cert.KernelIdeal.Result

open Idealize.ShloMosaic Idealize.ShloMosaic.TcCoe Idealize.SL.Sem
open Idealize.ShloMosaic.Pipeline (Dat)
open Cert.KernelIdeal Cert.KernelIdeal.Gen Cert.Crps Cert.KernelIdeal.Totals

variable (m : (ℓ : Loc nD τ sig) → Buf (Elt Ideal) ℓ) (ρ : Dev nD → PrngReg)

theorem hN : cfg0.N = 128 := N_0

/-- A point of the grid as a tile number. -/
abbrev tile (t : Fin cfg0.N) : Fin 128 := ⟨t.val, lt_of_lt_of_eq t.isLt hN⟩

/-- The two input windows step one block of rows per point and stay at column block 0; the output window never moves. -/
theorem idx_in : ∀ t : Fin cfg0.N, win0_0.index t 0 = t.val ∧ win0_0.index t 1 = 0 ∧ win0_1.index t 0 = t.val ∧ win0_1.index t 1 = 0 :=
  (by decide +kernel : ∀ t : Fin grid0.N, win0_0.index t 0 = t.val ∧ win0_0.index t 1 = 0 ∧ win0_1.index t 0 = t.val ∧ win0_1.index t 1 = 0)

theorem idx_out : ∀ t : Fin cfg0.N, win0_2.index t 0 = 0 ∧ win0_2.index t 1 = 0 :=
  (by decide +kernel : ∀ t : Fin grid0.N, win0_2.index t 0 = 0 ∧ win0_2.index t 1 = 0)

/-- The ensemble block at point t is rows 32t … 32t+31 of the ensemble argument. -/
theorem block0 (c : Dev nD) (t : Fin cfg0.N) :
    (iblk m c 0 t : Vec Ideal S32x256 .f32) = fun j => m ((c : Thread nD τ).loc main_arg0) (at2 (tile t) j) := by
  obtain ⟨h00, h01, -, -⟩ := idx_in t
  funext j
  unfold iblk
  rw [View.read_apply]
  show V m c main_arg0 _ = m (c.tc.loc main_arg0) _
  rw [V_main_arg0]
  congr 1
  funext a
  apply Fin.ext
  match a with
  | ⟨0, _⟩ => show win0_0.index t 0 * 32 + 1 * (j 0).val = 32 * t.val + (j 0).val; rw [h00]; omega
  | ⟨1, _⟩ => show win0_0.index t 1 * 256 + 1 * (j 1).val = (j 1).val; rw [h01]; omega

/-- The targets block at point t is rows 32t … 32t+31 of the targets argument. -/
theorem block1 (c : Dev nD) (t : Fin cfg0.N) :
    (iblk m c 1 t : Vec Ideal S32x1 .f32) = fun j => m ((c : Thread nD τ).loc main_arg1) (at1 (tile t) j) := by
  obtain ⟨-, -, h10, h11⟩ := idx_in t
  funext j
  unfold iblk
  rw [View.read_apply]
  show V m c main_arg1 _ = m (c.tc.loc main_arg1) _
  rw [V_main_arg1]
  congr 1
  funext a
  apply Fin.ext
  match a with
  | ⟨0, _⟩ => show win0_1.index t 0 * 32 + 1 * (j 0).val = 32 * t.val + (j 0).val; rw [h10]; omega
  | ⟨1, _⟩ => show win0_1.index t 1 * 1 + 1 * (j 1).val = (j 1).val; rw [h11]; omega

/-- The terms the first total collects over the whole grid are the whole Σ |x − y|. -/
theorem mae_all (c : Dev nD) :
    ∑ n ∈ Finset.range 128, maeAt m c n = maeTotal (m ((c : Thread nD τ).loc main_arg0)) (m ((c : Thread nD τ).loc main_arg1)) := by
  rw [Finset.sum_range, ← maeTotal_eq_tiles]
  refine Fintype.sum_congr _ _ fun t => ?_
  have ht : t.val < cfg0.N := lt_of_lt_of_eq t.isLt hN.symm
  rw [maeAt_of_lt m c t.val ht, block0 m c ⟨t.val, ht⟩, block1 m c ⟨t.val, ht⟩]

/-- The terms the second total collects over the whole grid are the whole Σ |x[i,k] − x[i,l]|. -/
theorem mix_all (c : Dev nD) :
    ∑ n ∈ Finset.range 128, mixAt m c n = mixTotal (m ((c : Thread nD τ).loc main_arg0)) := by
  rw [Finset.sum_range, ← mixTotal_eq_tiles]
  refine Fintype.sum_congr _ _ fun t => ?_
  have ht : t.val < cfg0.N := lt_of_lt_of_eq t.isLt hN.symm
  rw [mixAt_of_lt m c t.val ht, block0 m c ⟨t.val, ht⟩]

/-- The loss of the argument arrays on core c. -/
abbrev loss (c : Dev nD) : EReal := crps (m ((c : Thread nD τ).loc main_arg0)) (m ((c : Thread nD τ).loc main_arg1))

/-- The output array's contents: its one entry is the loss. -/
abbrev outArr (c : Dev nD) : Buf (Elt Ideal) ((c : Thread nD τ).loc main_v0) := fun _ => loss m c

/-- The last point of the grid. -/
abbrev tLast : Fin cfg0.N := ⟨127, by rw [hN]; decide⟩

/-- What the last point leaves in the output block is the loss. -/
theorem out_last (c : Dev nD) (t : Fin cfg0.N) (h1 : t.val % 128 = 127) :
    (outsAt0 m c t.val t.isLt).1 = fun _ => loss m c := by
  have ht : t.val = 127 := by have := t.isLt; have := hN; omega
  rw [last_out m c t h1, ht, chain_eq, chain_eq, mae_all, mix_all]
  rfl

/-- The one write-back writes it: block (0, 0) of the [1,1] output array, read through zero offsets, is the array. -/
theorem flushed_eq (c : Dev nD) (t : Fin cfg0.N) (hf : (cfg0.win 2).flush t = true) :
    (dats m 0 c).flushed 2 t = ((cfg0.win 2).blk t).view.read (Elt Ideal) (outArr m c) := by
  have h1 : t.val % 128 = 127 := (flush0_2 t).mp hf
  obtain ⟨i0, i1⟩ := idx_out t
  show (cfg0.win 2).cut (grid0.coords t) ((dats m 0 c).after 2 t) = _
  rw [after0_2, out_last m c t h1]
  have hz' : (fun a => win0_2.index t a * main_v0.ty.shape.size a) = fun _ => 0 := funext fun a => by
    match a with
    | ⟨0, _⟩ => show win0_2.index t 0 * 1 = 0; rw [i0]
    | ⟨1, _⟩ => show win0_2.index t 1 * 1 = 0; rw [i1]
  exact (Memref.read_access_unit_zero (Elt Ideal) main_v0 hz' (fun a => by rw [congrFun hz' a]; simp) (outArr m c)).symm

/-- So the output array ends holding the loss: the last point's block covers it. -/
theorem final (c : Dev nD) : (dats m 0 c).arrAt 2 cfg0.N = outArr m c :=
  (dats m 0 c).arrAt_eq_of_cover 2 (outArr m c) (flushed_eq m c) fun i =>
    ⟨tLast, (flush0_2 tLast).mpr rfl, by
      show i ∈ ((View.whole main_v0).slice (win0_2.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_2.index tLast 0 * win0_2.size 0 ≤ (i 0 : Nat) ∧ (i 0 : Nat) < win0_2.index tLast 0 * win0_2.size 0 + win0_2.xsize (grid0.coords tLast) 0
                  rw [show win0_2.index tLast 0 * win0_2.size 0 = 0 from by decide +kernel, show win0_2.xsize (grid0.coords tLast) 0 = 1 from by decide +kernel]; omega
      | ⟨1, _⟩ => show win0_2.index tLast 1 * win0_2.size 1 ≤ (i 1 : Nat) ∧ (i 1 : Nat) < win0_2.index tLast 1 * win0_2.size 1 + win0_2.xsize (grid0.coords tLast) 1
                  rw [show win0_2.index tLast 1 * win0_2.size 1 = 0 from by decide +kernel, show win0_2.xsize (grid0.coords tLast) 1 = 1 from by decide +kernel]; omega⟩

/-- The host line after the region reshapes the [1,1] output array to a scalar: its one entry is the loss. -/
theorem tail_eq (c : Dev nD) :
    Pipeline.afterTail₀ cfgs (dats m) 0 (V0 m) [hostOps1] c main_v1 = fun _ => loss m c := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = outArr m c :=
    (Pipeline.withArrays_arr spec0 winFacts0.arr_inj c _ _ 2).trans (final m c)
  rw [e]
  rfl

/-- The run, read: @main's result at the loss of the arguments, the arguments unchanged. -/
theorem run : θ_run defs (onTc (τ := τ) (main (F := Ideal))) ⟨m, fun _ => 0, ρ⟩ fun r => ∀ c : Dev nD,
      r.2.mem ((c : Thread nD τ).loc main_v1) = (fun _ => loss m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v1 (Pipeline.mem_restRefs_of main_v1 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Result

end
-- ==== Proof.RefValue.lean ====
/-
  The reference, at the ideal instance, computes the loss of Spec.

  Its first sum is over all (i, k) of |x[i,k] − y[i]|, the column of targets broadcast along the rows, from the zero, then
  divided by 2^20. Its second broadcasts x once along a new middle axis and once along a new last axis, so at (i, k, l)
  it takes |x[i,l] − x[i,k]| — the pair named in the other order than Spec names it, which the sum over all pairs does
  not see — from the zero, divided by 2^29; the result is the difference of the two quotients.
-/
import proofs.«179768_j17386027614770_1_alg».proof.Proof.Gen.ReferenceIdeal.Read
import proofs.«179768_j17386027614770_1_alg».proof.Proof.Spec

noncomputable section

namespace Cert.ReferenceIdeal.RefValue

open Idealize.ShloMosaic Idealize.ShloMosaic.ValueIdx Cert.ReferenceIdeal Cert.ReferenceIdeal.Read Cert.Crps

/-- The reference's first sum is Σ_{i,k} |x[i,k] − y[i]|. -/
theorem mae_sum (x : (⟨S4096x256, .f32⟩ : BufTy).Contents (Elt Ideal)) (y : (⟨S4096x1, .f32⟩ : BufTy).Contents (Elt Ideal)) :
    ∑ j : S4096x256.Idx, val_main_v2 (F := Ideal) x y j = maeTotal x y := by
  unfold maeTotal
  refine Fintype.sum_congr _ _ fun j => ?_
  rw [val_main_v2_apply, val_main_v1_apply, val_main_v0_apply]
  have e : idx_main_v0 j = ix2 (j 0 : Fin 4096) (0 : Fin 1) :=
    funext fun a => Fin.ext (by match a with | ⟨0, _⟩ => rfl | ⟨1, _⟩ => rfl)
  rw [e]
  rfl

/-- The reference's second sum is Σ_{i,k,l} |x[i,k] − x[i,l]|, each pair met under its other name. -/
theorem mix_sum (x : (⟨S4096x256, .f32⟩ : BufTy).Contents (Elt Ideal)) :
    ∑ j : S4096x256x256.Idx, val_main_v10 (F := Ideal) x j = mixTotal x := by
  unfold mixTotal
  refine Eq.trans ?_ (sum_swap (fun i : X3.Idx => absE (x (ix2 (i 0) (i 1)) - x (ix2 (i 0) (i 2)))))
  refine Fintype.sum_congr _ _ fun j => ?_
  rw [val_main_v10_apply, val_main_v9_apply, val_main_v7_apply, val_main_v8_apply, val_main_v5_apply, val_main_v6_apply]
  have e1 : idx_main_v5 (idx_main_v7 j) = ix2 ((swap j) 0) ((swap j) 1) :=
    funext fun a => Fin.ext (by match a with | ⟨0, _⟩ => rfl | ⟨1, _⟩ => rfl)
  have e2 : idx_main_v6 (idx_main_v8 j) = ix2 ((swap j) 0) ((swap j) 2) :=
    funext fun a => Fin.ext (by match a with | ⟨0, _⟩ => rfl | ⟨1, _⟩ => rfl)
  rw [e1, e2]
  rfl

/-- The reference's result is the loss. -/
theorem ref_eq (x : (⟨S4096x256, .f32⟩ : BufTy).Contents (Elt Ideal)) (y : (⟨S4096x1, .f32⟩ : BufTy).Contents (Elt Ideal)) :
    val_main_v13 (F := Ideal) x y = fun _ => crps x y := by
  funext i
  rw [val_main_v13_apply, val_main_v4_apply, val_main_v12_apply, val_main_v3_apply, val_main_v11_apply, mae_sum, mix_sum]
  unfold crps
  rfl

end Cert.ReferenceIdeal.RefValue

end
-- ==== Proof.lean ====
/-
  The kernel computes a continuous ranked probability loss of an ensemble x : f32[4096, 256] against targets
  y : f32[4096, 1],

      mean |x − y|  −  Σ_{i,k,l} |x[i,k] − x[i,l]| / (4096 · 2 · 256²),

  tile by tile: 128 grid points of 32 rows each, two running totals kept in scratch (reset at the first point, each fed
  one tile's term per point), divided and subtracted at the last point into a [1,1] output that @main reshapes to a
  scalar. The reference takes the two sums over the whole arrays at once. Over the extended reals the two agree for every
  input: both divisors are exact powers of two (2^20 and 2^29) spelled by the same words on both sides, and regrouping a
  sum by tiles or exchanging the two ensemble axes of the pair sum is commutativity and associativity of addition, which
  hold at the infinities as well — so the finiteness of the inputs is never used.

  Spec states the loss and the three laws of sums; Pieces, Payload and Totals read the kernel's body, point by point, as
  running totals; Result carries them to @main's result through the write-back and the reshape; RefValue reads the
  reference's term as the same loss. Here the five claims are assembled: the two kernel frames are the generated ones,
  the reference's frame is its generated run with the result forgotten, the idealization rewrote nothing, and the two
  idealized programs end at one and the same function of arguments that agree.
-/
import proofs.«179768_j17386027614770_1_alg».proof.Defs
import proofs.«179768_j17386027614770_1_alg».proof.Proof.Gen.Kernel
import proofs.«179768_j17386027614770_1_alg».proof.Proof.Gen.Kernel.Skeleton
import proofs.«179768_j17386027614770_1_alg».proof.Proof.Gen.Kernel.Launch
import proofs.«179768_j17386027614770_1_alg».proof.Proof.Gen.Kernel.Points
import proofs.«179768_j17386027614770_1_alg».proof.Proof.Gen.Kernel.Frame
import proofs.«179768_j17386027614770_1_alg».proof.Proof.Gen.KernelIdeal
import proofs.«179768_j17386027614770_1_alg».proof.Proof.Gen.KernelIdeal.Skeleton
import proofs.«179768_j17386027614770_1_alg».proof.Proof.Gen.KernelIdeal.Launch
import proofs.«179768_j17386027614770_1_alg».proof.Proof.Gen.KernelIdeal.Points
import proofs.«179768_j17386027614770_1_alg».proof.Proof.Gen.KernelIdeal.Frame
import proofs.«179768_j17386027614770_1_alg».proof.Proof.Gen.ReferenceIdeal
import proofs.«179768_j17386027614770_1_alg».proof.Proof.Gen.ReferenceIdeal.Run
import proofs.«179768_j17386027614770_1_alg».proof.Proof.Gen.ReferenceIdeal.Read
import proofs.«179768_j17386027614770_1_alg».proof.Proof.Gen.Pre_finite_inputs
import proofs.«179768_j17386027614770_1_alg».proof.Proof.Result
import proofs.«179768_j17386027614770_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel and its idealization run, fault nowhere and leave their arguments alone. -/
theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- So does the reference: its run, with what it computes forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2)
    (Cert.ReferenceIdeal.Value.run (F := Ideal) m ρ)

/-- The idealization rewrote no operation of the kernel. -/
theorem preserves : Cert.preserves_Kernel_KernelIdeal := trivial

/-- From arguments that agree, the idealized kernel ends with the loss of its arguments in its result, and the
    idealized reference with the loss of its own: the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => fun _ => Cert.KernelIdeal.Result.loss m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.ref_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
